-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 54
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000x1, .f32⟩
  | .hbm, ⟨14, _⟩ => ⟨S_, .f32⟩
  | .hbm, ⟨15, _⟩ => ⟨S100000x1, .f32⟩
  | .hbm, ⟨16, _⟩ => ⟨S1600000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RunMain.lean ====
/-
  The run of the two-layer program with its result named. Every weakly fair execution of the program terminates
  without a fault; in the final state each argument array is as it was launched, and the result array holds what the
  second layer's write-backs leave in it, given the buffer contents the second layer was entered from.
-/
import proofs.«103960_j78752520339773_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run: the result array ends at the last boundary's contents, the arguments as launched. -/
theorem run_main : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.SageRun

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Body.lean ====
/-
  The fused layer body read at an entry. On a block of rows the body multiplies the neighbour sums by the reciprocal
  degree of their row, rounds to a narrower float format (the identity on the extended reals), multiplies by the left
  weight matrix, adds the bias row, adds the product of the block's own features with the right weight matrix, and
  clamps below at zero. At entry (p, q) that is
    max ( sum_k (s(p,k) * inv(p,0)) * wl(k,q)  +  b(0,q)  +  sum_k x(p,k) * wr(k,q) ) 0.
-/
import proofs.«103960_j78752520339773_2_alg».proof.Proof.Gen.KernelIdeal.Skeleton
import proofs.«103960_j78752520339773_2_alg».proof.Proof.LibMatmulPlain
import proofs.«103960_j78752520339773_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.SageBody

open Idealize.ShloMosaic Idealize.ShloMosaic.ValueIdx Cert.KernelIdeal Cert.KernelIdeal.Gen

/-- The layer's value at entry (r, q): the mean-aggregated neighbour features of row r against the left weights,
    plus the bias, plus the row's own features against the right weights, clamped below at zero. -/
def sageOut {R K N : ℕ} (agg x : Fin R → Fin K → EReal) (wl wr : Fin K → Fin N → EReal)
    (b : Fin N → EReal) (r : Fin R) (q : Fin N) : EReal :=
  max ((∑ k : Fin K, agg r k * wl k q) + b q + ∑ k : Fin K, x r k * wr k q) (Ideal.ofBits .f32 0x00000000#32)

/-- One layer on whole arrays: entry i of the result, from the neighbour sums, the node features, the reciprocal
    degrees (a column), the two weight matrices and the bias (a row). -/
def layerOut (ssum x : S100000x128.Idx → EReal) (inv : S100000x1.Idx → EReal) (wl : S128x128.Idx → EReal)
    (b : S1x128.Idx → EReal) (wr : S128x128.Idx → EReal) : S100000x128.Idx → EReal := fun i =>
  sageOut (fun r k => ssum (ix2 r k) * inv (ix2 r (0 : Fin 1))) (fun r k => x (ix2 r k))
    (fun k c => wl (ix2 k c)) (fun k c => wr (ix2 k c)) (fun c => b (ix2 (0 : Fin 1) c))
    (⟨(i 0).val, (i 0).isLt⟩ : Fin 100000) (⟨(i 1).val, (i 1).isLt⟩ : Fin 128)

theorem layerOut_apply (ssum x : S100000x128.Idx → EReal) (inv : S100000x1.Idx → EReal) (wl : S128x128.Idx → EReal)
    (b : S1x128.Idx → EReal) (wr : S128x128.Idx → EReal) (r : Fin 100000) (q : Fin 128) :
    layerOut ssum x inv wl b wr (ix2 r q)
      = sageOut (fun r k => ssum (ix2 r k) * inv (ix2 r (0 : Fin 1))) (fun r k => x (ix2 r k))
          (fun k c => wl (ix2 k c)) (fun k c => wr (ix2 k c)) (fun c => b (ix2 (0 : Fin 1) c)) r q := rfl

/-- The first layer's body at entry (p, q) of its block. -/
theorem pay0_apply (v0 : FVec Ideal S5000x128 .f32) (v2 : FVec Ideal S5000x1 .f32) (v7 : FVec Ideal S5000x128 .f32)
    (v9 v11 : FVec Ideal S128x128 .f32) (v14 : FVec Ideal S1x128 .f32) (p : Fin 5000) (q : Fin 128) :
    k0_pay1 (F := Ideal) v0 v2 v7 v9 v11 v14 (ix2 p q)
      = sageOut (fun r k => v0 (ix2 r k) * v2 (ix2 r (0 : Fin 1))) (fun r k => v7 (ix2 r k))
          (fun k c => v9 (ix2 k c)) (fun k c => v11 (ix2 k c)) (fun c => v14 (ix2 (0 : Fin 1) c)) p q := by
  unfold k0_pay1 sageOut
  dsimp only
  refine (maximumf_apply _ _ _).trans (congrArg₂ max ?_ rfl)
  refine (addf_apply _ _ _).trans (congrArg₂ (· + ·) ?_ ?_)
  · refine (addf_apply _ _ _).trans (congrArg₂ (· + ·) ?_ ?_)
    · refine (LibMatmulPlain.matmul_zero_apply dot_S5000x128_S128x128_S5000x128_1_0_0_1_n_n rfl rfl rfl rfl rfl rfl
        none _ _ p q).trans (Finset.sum_congr rfl fun k _ => congrArg₂ (· * ·) ?_ rfl)
      refine (truncf_apply (φ := .f32) (ψ := .bf16) _ bitsLt_bf16_f32 _).trans ((mulf_apply _ _ _).trans (congrArg₂ (· * ·) ?_ ?_))
      · exact congrFun (shapeCast_self v0 shapeCasts_S5000x128_S5000x128) _
      · exact (LibKeepdims.broadcastTo_a1_ab_apply _ broadcasts_S5000x1_S5000x128 p k).trans
          (congrFun (shapeCast_self v2 shapeCasts_S5000x1_S5000x1) _)
    · exact LibKeepdims.row_spread_apply v14 shapeCasts_S1x128_S1x128 broadcasts_S1x128_S5000x128 p q
  · exact LibMatmulPlain.matmul_zero_apply dot_S5000x128_S128x128_S5000x128_1_0_0_1_n_n rfl rfl rfl rfl rfl rfl
      none _ _ p q

/-- The second layer's body at entry (p, q) of its block: the same value (its own features pass through one more
    cast of a shape to itself). -/
theorem pay1_apply (v0 : FVec Ideal S5000x128 .f32) (v2 : FVec Ideal S5000x1 .f32) (v7 : FVec Ideal S5000x128 .f32)
    (v10 v12 : FVec Ideal S128x128 .f32) (v15 : FVec Ideal S1x128 .f32) (p : Fin 5000) (q : Fin 128) :
    k1_pay1 (F := Ideal) v0 v2 v7 v10 v12 v15 (ix2 p q)
      = sageOut (fun r k => v0 (ix2 r k) * v2 (ix2 r (0 : Fin 1))) (fun r k => v7 (ix2 r k))
          (fun k c => v10 (ix2 k c)) (fun k c => v12 (ix2 k c)) (fun c => v15 (ix2 (0 : Fin 1) c)) p q := by
  unfold k1_pay1 sageOut
  dsimp only
  refine (maximumf_apply _ _ _).trans (congrArg₂ max ?_ rfl)
  refine (addf_apply _ _ _).trans (congrArg₂ (· + ·) ?_ ?_)
  · refine (addf_apply _ _ _).trans (congrArg₂ (· + ·) ?_ ?_)
    · refine (LibMatmulPlain.matmul_zero_apply dot_S5000x128_S128x128_S5000x128_1_0_0_1_n_n rfl rfl rfl rfl rfl rfl
        none _ _ p q).trans (Finset.sum_congr rfl fun k _ => congrArg₂ (· * ·) ?_ rfl)
      refine (truncf_apply (φ := .f32) (ψ := .bf16) _ bitsLt_bf16_f32 _).trans ((mulf_apply _ _ _).trans (congrArg₂ (· * ·) ?_ ?_))
      · exact congrFun (shapeCast_self v0 shapeCasts_S5000x128_S5000x128) _
      · exact (LibKeepdims.broadcastTo_a1_ab_apply _ broadcasts_S5000x1_S5000x128 p k).trans
          (congrFun (shapeCast_self v2 shapeCasts_S5000x1_S5000x1) _)
    · exact LibKeepdims.row_spread_apply v15 shapeCasts_S1x128_S1x128 broadcasts_S1x128_S5000x128 p q
  · refine (LibMatmulPlain.matmul_zero_apply dot_S5000x128_S128x128_S5000x128_1_0_0_1_n_n rfl rfl rfl rfl rfl rfl
      none _ _ p q).trans (Finset.sum_congr rfl fun k _ => congrArg₂ (· * ·) ?_ rfl)
    exact (truncf_apply (φ := .f32) (ψ := .bf16) _ bitsLt_bf16_f32 _).trans (congrFun (shapeCast_self v7 shapeCasts_S5000x128_S5000x128) _)

end Cert.SageBody

end
-- ==== Proof.Region0.lean ====
/-
  What layer one's launch leaves in its output array, as one function of the arrays it was entered with. The grid has 20
  points; point t works on rows 5000 t .. 5000 t + 4999 of the neighbour sums, of the node features and of the
  reciprocal degrees, on the whole weight matrices and the whole bias row, and writes back rows 5000 t .. of the
  output. So the block a point writes back is the restriction to those rows of ONE function of the whole arrays — the
  layer's value at each entry — and the 20 blocks cover the array.
-/
import proofs.«103960_j78752520339773_2_alg».proof.Proof.Gen.KernelIdeal.Frame
import proofs.«103960_j78752520339773_2_alg».proof.Proof.Body
import Idealize.ShloMosaic.Lib.Pipeline.Value

set_option maxRecDepth 16384

noncomputable section

open scoped BigOperators

namespace Cert.KernelIdeal.SageRegion0

open Cert.KernelIdeal Cert.KernelIdeal.Gen Cert.SageBody
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row p of block t is row 5000 t + p of the array. -/
def row (t : ℕ) (ht : t < 20) (p : Fin 5000) : Fin 100000 := ⟨t * 5000 + p.val, by have := p.isLt; omega⟩

theorem tlt (t : Fin cfg0.N) : t.val < 20 := lt_of_lt_of_eq t.isLt N_0

/-- The printed block indices, decided over the grid: the three row-blocked inputs and the output are at block
    (t, 0); the weights and the bias are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block read where the array says -/

theorem rd0 (c : Dev nD) (t : Fin cfg0.N) (p : Fin 5000) (k : Fin 128) :
    iblk0 V c 0 t (ix2 p k) = V c main_v21 (ix2 (row t.val (tlt t) p) k) := by
  show V c main_v21 (((cfg0.win 0).blk t).view.emb (ix2 p k)) = V c main_v21 (ix2 (row t.val (tlt t) p) k)
  refine congrArg (V c main_v21) (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

theorem rd1 (c : Dev nD) (t : Fin cfg0.N) (p : Fin 5000) (k : Fin 128) :
    iblk0 V c 1 t (ix2 p k) = V c main_arg0 (ix2 (row t.val (tlt t) p) k) := by
  show V c main_arg0 (((cfg0.win 1).blk t).view.emb (ix2 p k)) = V c main_arg0 (ix2 (row t.val (tlt t) p) k)
  refine congrArg (V c main_arg0) (funext fun a => Fin.ext ?_)
  obtain ⟨-, -, e0, e1, -⟩ := idx_facts t
  match a with
  | ⟨0, _⟩ => show win0_1.index t (0 : Fin 2) * 5000 + 1 * p.val = t.val * 5000 + p.val; omega
  | ⟨1, _⟩ => show win0_1.index t (1 : Fin 2) * 128 + 1 * k.val = k.val; omega

theorem rd2 (c : Dev nD) (t : Fin cfg0.N) (p : Fin 5000) (u : Fin 1) :
    iblk0 V c 2 t (ix2 p u) = V c main_v11 (ix2 (row t.val (tlt t) p) u) := by
  show V c main_v11 (((cfg0.win 2).blk t).view.emb (ix2 p u)) = V c main_v11 (ix2 (row t.val (tlt t) p) u)
  refine congrArg (V c main_v11) (funext fun a => Fin.ext ?_)
  obtain ⟨-, -, -, -, e0, e1, -⟩ := idx_facts t
  match a with
  | ⟨0, _⟩ => show win0_2.index t (0 : Fin 2) * 5000 + 1 * p.val = t.val * 5000 + p.val; omega
  | ⟨1, _⟩ => show win0_2.index t (1 : Fin 2) * 1 + 1 * u.val = u.val; omega

theorem rd3 (c : Dev nD) (t : Fin cfg0.N) (k : Fin 128) (q : Fin 128) :
    iblk0 V c 3 t (ix2 k q) = V c main_arg1 (ix2 k q) := by
  show V c main_arg1 (((cfg0.win 3).blk t).view.emb (ix2 k q)) = V c main_arg1 (ix2 k q)
  refine congrArg (V c main_arg1) (funext fun a => Fin.ext ?_)
  obtain ⟨-, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * q.val = q.val; omega

theorem rd4 (c : Dev nD) (t : Fin cfg0.N) (u : Fin 1) (q : Fin 128) :
    iblk0 V c 4 t (ix2 u q) = V c main_v22 (ix2 u q) := by
  show V c main_v22 (((cfg0.win 4).blk t).view.emb (ix2 u q)) = V c main_v22 (ix2 u q)
  refine congrArg (V c main_v22) (funext fun a => Fin.ext ?_)
  obtain ⟨-, -, -, -, -, -, -, -, e0, e1, -⟩ := idx_facts t
  match a with
  | ⟨0, _⟩ => show win0_4.index t (0 : Fin 2) * 1 + 1 * u.val = u.val; omega
  | ⟨1, _⟩ => show win0_4.index t (1 : Fin 2) * 128 + 1 * q.val = q.val; omega

theorem rd5 (c : Dev nD) (t : Fin cfg0.N) (k : Fin 128) (q : Fin 128) :
    iblk0 V c 5 t (ix2 k q) = V c main_arg3 (ix2 k q) := by
  show V c main_arg3 (((cfg0.win 5).blk t).view.emb (ix2 k q)) = V c main_arg3 (ix2 k q)
  refine congrArg (V c main_arg3) (funext fun a => Fin.ext ?_)
  obtain ⟨-, -, -, -, -, -, -, -, -, -, e0, e1, -⟩ := idx_facts t
  match a with
  | ⟨0, _⟩ => show win0_5.index t (0 : Fin 2) * 128 + 1 * k.val = k.val; omega
  | ⟨1, _⟩ => show win0_5.index t (1 : Fin 2) * 128 + 1 * q.val = q.val; omega

/-- Entry (p, q) of the output's block t is entry (5000 t + p, q) of the output array. -/
theorem emb6 (t : Fin cfg0.N) (p : Fin 5000) (q : Fin 128) :
    ((cfg0.win 6).blk t).view.emb (ix2 p q) = ix2 (row t.val (tlt t) p) q := by
  funext a; apply Fin.ext
  obtain ⟨-, -, -, -, -, -, -, -, -, -, -, -, e0, e1⟩ := idx_facts t
  match a with
  | ⟨0, _⟩ => show win0_6.index t (0 : Fin 2) * 5000 + 1 * p.val = t.val * 5000 + p.val; omega
  | ⟨1, _⟩ => show win0_6.index t (1 : Fin 2) * 128 + 1 * q.val = q.val; omega

/-! ## The block a point writes back, the cover, the array -/

/-- What point t writes back is block t of the layer's value on the whole arrays. -/
theorem flushed_eq (c : Dev nD) (t : Fin cfg0.N) :
    (dat0 V c).flushed 6 t = ((cfg0.win 6).blk t).view.read (Elt Ideal)
      (layerOut (V c main_v21) (V c main_arg0) (V c main_v11) (V c main_arg1) (V c main_v22) (V c main_arg3)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 2 t) (iblk0 V c 1 t) (iblk0 V c 3 t) (iblk0 V c 5 t) (iblk0 V c 4 t) (ix2 p q)
    = layerOut (V c main_v21) (V c main_arg0) (V c main_v11) (V c main_arg1) (V c main_v22) (V c main_arg3)
        (((cfg0.win 6).blk t).view.emb (ix2 p q))
  rw [emb6 t p q]
  refine (pay0_apply (iblk0 V c 0 t) (iblk0 V c 2 t) (iblk0 V c 1 t) (iblk0 V c 3 t) (iblk0 V c 5 t) (iblk0 V c 4 t) p q).trans ?_
  refine (Eq.trans ?_ (layerOut_apply _ _ _ _ _ _ _ _).symm)
  unfold sageOut
  simp only [rd0 V c t, rd1 V c t, rd2 V c t, rd3 V c t, rd4 V c t, rd5 V c t]

/-- An index of the output array is in point t's block iff each coordinate is in the block's range. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v23).slice (win0_6.rect t)).set ↔ _
  rw [View.set_slice_whole, Rect.mem_set_unit]
  exact Iff.rfl

/-- Every entry of the output array is in some point's block: the point of row r is r / 5000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the launch is the layer's value on the arrays the launch was entered with. -/
theorem final (c : Dev nD) : (dat0 V c).arrAt 6 cfg0.N
    = layerOut (V c main_v21) (V c main_arg0) (V c main_v11) (V c main_arg1) (V c main_v22) (V c main_arg3) :=
  (dat0 V c).arrAt_eq_of_cover 6 _ (fun t _ => flushed_eq V c t) (cover)

end Cert.KernelIdeal.SageRegion0

end
-- ==== Proof.Region1.lean ====
/-
  What layer two's launch leaves in its output array, as one function of the arrays it was entered with. The grid has 20
  points; point t works on rows 5000 t .. 5000 t + 4999 of the neighbour sums, of the node features and of the
  reciprocal degrees, on the whole weight matrices and the whole bias row, and writes back rows 5000 t .. of the
  output. So the block a point writes back is the restriction to those rows of ONE function of the whole arrays — the
  layer's value at each entry — and the 20 blocks cover the array.
-/
import proofs.«103960_j78752520339773_2_alg».proof.Proof.Gen.KernelIdeal.Frame
import proofs.«103960_j78752520339773_2_alg».proof.Proof.Body
import Idealize.ShloMosaic.Lib.Pipeline.Value

set_option maxRecDepth 16384

noncomputable section

open scoped BigOperators

namespace Cert.KernelIdeal.SageRegion1

open Cert.KernelIdeal Cert.KernelIdeal.Gen Cert.SageBody
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row p of block t is row 5000 t + p of the array. -/
def row (t : ℕ) (ht : t < 20) (p : Fin 5000) : Fin 100000 := ⟨t * 5000 + p.val, by have := p.isLt; omega⟩

theorem tlt (t : Fin cfg1.N) : t.val < 20 := lt_of_lt_of_eq t.isLt N_1

/-- The printed block indices, decided over the grid: the three row-blocked inputs and the output are at block
    (t, 0); the weights and the bias are at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each input block read where the array says -/

theorem rd0 (c : Dev nD) (t : Fin cfg1.N) (p : Fin 5000) (k : Fin 128) :
    iblk1 V c 0 t (ix2 p k) = V c main_v33 (ix2 (row t.val (tlt t) p) k) := by
  show V c main_v33 (((cfg1.win 0).blk t).view.emb (ix2 p k)) = V c main_v33 (ix2 (row t.val (tlt t) p) k)
  refine congrArg (V c main_v33) (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

theorem rd1 (c : Dev nD) (t : Fin cfg1.N) (p : Fin 5000) (k : Fin 128) :
    iblk1 V c 1 t (ix2 p k) = V c main_v23 (ix2 (row t.val (tlt t) p) k) := by
  show V c main_v23 (((cfg1.win 1).blk t).view.emb (ix2 p k)) = V c main_v23 (ix2 (row t.val (tlt t) p) k)
  refine congrArg (V c main_v23) (funext fun a => Fin.ext ?_)
  obtain ⟨-, -, e0, e1, -⟩ := idx_facts t
  match a with
  | ⟨0, _⟩ => show win1_1.index t (0 : Fin 2) * 5000 + 1 * p.val = t.val * 5000 + p.val; omega
  | ⟨1, _⟩ => show win1_1.index t (1 : Fin 2) * 128 + 1 * k.val = k.val; omega

theorem rd2 (c : Dev nD) (t : Fin cfg1.N) (p : Fin 5000) (u : Fin 1) :
    iblk1 V c 2 t (ix2 p u) = V c main_v11 (ix2 (row t.val (tlt t) p) u) := by
  show V c main_v11 (((cfg1.win 2).blk t).view.emb (ix2 p u)) = V c main_v11 (ix2 (row t.val (tlt t) p) u)
  refine congrArg (V c main_v11) (funext fun a => Fin.ext ?_)
  obtain ⟨-, -, -, -, e0, e1, -⟩ := idx_facts t
  match a with
  | ⟨0, _⟩ => show win1_2.index t (0 : Fin 2) * 5000 + 1 * p.val = t.val * 5000 + p.val; omega
  | ⟨1, _⟩ => show win1_2.index t (1 : Fin 2) * 1 + 1 * u.val = u.val; omega

theorem rd3 (c : Dev nD) (t : Fin cfg1.N) (k : Fin 128) (q : Fin 128) :
    iblk1 V c 3 t (ix2 k q) = V c main_arg4 (ix2 k q) := by
  show V c main_arg4 (((cfg1.win 3).blk t).view.emb (ix2 k q)) = V c main_arg4 (ix2 k q)
  refine congrArg (V c main_arg4) (funext fun a => Fin.ext ?_)
  obtain ⟨-, -, -, -, -, -, e0, e1, -⟩ := idx_facts t
  match a with
  | ⟨0, _⟩ => show win1_3.index t (0 : Fin 2) * 128 + 1 * k.val = k.val; omega
  | ⟨1, _⟩ => show win1_3.index t (1 : Fin 2) * 128 + 1 * q.val = q.val; omega

theorem rd4 (c : Dev nD) (t : Fin cfg1.N) (u : Fin 1) (q : Fin 128) :
    iblk1 V c 4 t (ix2 u q) = V c main_v34 (ix2 u q) := by
  show V c main_v34 (((cfg1.win 4).blk t).view.emb (ix2 u q)) = V c main_v34 (ix2 u q)
  refine congrArg (V c main_v34) (funext fun a => Fin.ext ?_)
  obtain ⟨-, -, -, -, -, -, -, -, e0, e1, -⟩ := idx_facts t
  match a with
  | ⟨0, _⟩ => show win1_4.index t (0 : Fin 2) * 1 + 1 * u.val = u.val; omega
  | ⟨1, _⟩ => show win1_4.index t (1 : Fin 2) * 128 + 1 * q.val = q.val; omega

theorem rd5 (c : Dev nD) (t : Fin cfg1.N) (k : Fin 128) (q : Fin 128) :
    iblk1 V c 5 t (ix2 k q) = V c main_arg6 (ix2 k q) := by
  show V c main_arg6 (((cfg1.win 5).blk t).view.emb (ix2 k q)) = V c main_arg6 (ix2 k q)
  refine congrArg (V c main_arg6) (funext fun a => Fin.ext ?_)
  obtain ⟨-, -, -, -, -, -, -, -, -, -, e0, e1, -⟩ := idx_facts t
  match a with
  | ⟨0, _⟩ => show win1_5.index t (0 : Fin 2) * 128 + 1 * k.val = k.val; omega
  | ⟨1, _⟩ => show win1_5.index t (1 : Fin 2) * 128 + 1 * q.val = q.val; omega

/-- Entry (p, q) of the output's block t is entry (5000 t + p, q) of the output array. -/
theorem emb6 (t : Fin cfg1.N) (p : Fin 5000) (q : Fin 128) :
    ((cfg1.win 6).blk t).view.emb (ix2 p q) = ix2 (row t.val (tlt t) p) q := by
  funext a; apply Fin.ext
  obtain ⟨-, -, -, -, -, -, -, -, -, -, -, -, e0, e1⟩ := idx_facts t
  match a with
  | ⟨0, _⟩ => show win1_6.index t (0 : Fin 2) * 5000 + 1 * p.val = t.val * 5000 + p.val; omega
  | ⟨1, _⟩ => show win1_6.index t (1 : Fin 2) * 128 + 1 * q.val = q.val; omega

/-! ## The block a point writes back, the cover, the array -/

/-- What point t writes back is block t of the layer's value on the whole arrays. -/
theorem flushed_eq (c : Dev nD) (t : Fin cfg1.N) :
    (dat1 V c).flushed 6 t = ((cfg1.win 6).blk t).view.read (Elt Ideal)
      (layerOut (V c main_v33) (V c main_v23) (V c main_v11) (V c main_arg4) (V c main_v34) (V c main_arg6)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 2 t) (iblk1 V c 1 t) (iblk1 V c 3 t) (iblk1 V c 5 t) (iblk1 V c 4 t) (ix2 p q)
    = layerOut (V c main_v33) (V c main_v23) (V c main_v11) (V c main_arg4) (V c main_v34) (V c main_arg6)
        (((cfg1.win 6).blk t).view.emb (ix2 p q))
  rw [emb6 t p q]
  refine (pay1_apply (iblk1 V c 0 t) (iblk1 V c 2 t) (iblk1 V c 1 t) (iblk1 V c 3 t) (iblk1 V c 5 t) (iblk1 V c 4 t) p q).trans ?_
  refine (Eq.trans ?_ (layerOut_apply _ _ _ _ _ _ _ _).symm)
  unfold sageOut
  simp only [rd0 V c t, rd1 V c t, rd2 V c t, rd3 V c t, rd4 V c t, rd5 V c t]

/-- An index of the output array is in point t's block iff each coordinate is in the block's range. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v35).slice (win1_6.rect t)).set ↔ _
  rw [View.set_slice_whole, Rect.mem_set_unit]
  exact Iff.rfl

/-- Every entry of the output array is in some point's block: the point of row r is r / 5000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the launch is the layer's value on the arrays the launch was entered with. -/
theorem final (c : Dev nD) : (dat1 V c).arrAt 6 cfg1.N
    = layerOut (V c main_v33) (V c main_v23) (V c main_v11) (V c main_arg4) (V c main_v34) (V c main_arg6) :=
  (dat1 V c).arrAt_eq_of_cover 6 _ (fun t _ => flushed_eq V c t) (cover)

end Cert.KernelIdeal.SageRegion1

end
-- ==== Proof.HostFns.lean ====
/-
  The parts of the program that run outside the two fused layers, each named once. From the edge list (two rows of
  node numbers, sources and destinations): the sum over incoming edges of the source rows of a feature array (a
  gather of source rows, negative numbers wrapped around once, then a scatter-add at the destination numbers from
  zero); the in-degree of every node (the same scatter-add of ones), clamped below at one; its reciprocal; and the
  bias vector laid out as one row.
-/
import proofs.«103960_j78752520339773_2_alg».proof.Proof.Gen.KernelIdeal
import proofs.«103960_j78752520339773_2_alg».proof.Proof.Body
import Idealize.ShloMosaic.PureOps.Ideal

noncomputable section

namespace Cert.KernelIdeal.SageHost

open Cert.KernelIdeal Cert.KernelIdeal.Gen Cert.SageBody Idealize.ShloMosaic

abbrev I32 (s : Shape) := (⟨s, .i32⟩ : BufTy).Contents (Elt Ideal)
abbrev F32 (s : Shape) := (⟨s, .f32⟩ : BufTy).Contents (Elt Ideal)

/-- The edges' source numbers: row 0 of the edge list. -/
def srcRaw (e : I32 S2x1600000) : I32 S1600000 :=
  shapeCast _ (extractStridedSlice S1x1600000 ![0, 0] e slices_S2x1600000_S1x1600000_0_0) shapeCasts_S1x1600000_S1600000

/-- The edges' destination numbers: row 1 of the edge list. -/
def dstRaw (e : I32 S2x1600000) : I32 S1600000 :=
  shapeCast _ (extractStridedSlice S1x1600000 ![1, 0] e slices_S2x1600000_S1x1600000_1_0) shapeCasts_S1x1600000_S1600000

/-- The neighbour sums of a feature array: for every node, the sum over its incoming edges of the source's row. -/
def segSum (feat : F32 S100000x128) (s d : I32 S1600000) : F32 S100000x128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 feat
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The in-degrees: for every node, a one added per incoming edge, from zero. -/
def degRaw (d : I32 S1600000) : F32 S100000x1 :=
  Host.scatterAdd (F := Ideal) scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 d)
    (broadcastInDim S1600000x1 ![] bcast_S_S1600000x1 (constant (F := Ideal) S_ .f32 0x3F800000#32))

/-- The in-degrees clamped below at one. -/
def degClamp (d : I32 S1600000) : F32 S100000x1 :=
  maximumf (degRaw d) (broadcastInDim S100000x1 ![] bcast_S_S100000x1 (constant (F := Ideal) S_ .f32 0x3F800000#32))

/-- One over the clamped in-degrees. -/
def invDeg (d : I32 S1600000) : F32 S100000x1 :=
  Host.divf (F := Ideal) (broadcastInDim S100000x1 ![] bcast_S_S100000x1 (constant (F := Ideal) S_ .f32 0x3F800000#32)) (degClamp d)

/-- The bias vector as one row. -/
def biasRow (b : F32 S128) : F32 S1x128 := shapeCast _ b shapeCasts_S128_S1x128

/-- One layer from the node features it aggregates and keeps, its weights, its bias and the edge list. -/
def layer (h : F32 S100000x128) (wl : F32 S128x128) (b : F32 S128) (wr : F32 S128x128) (e : I32 S2x1600000) :
    F32 S100000x128 :=
  layerOut (segSum h (srcRaw e) (dstRaw e)) h (invDeg (dstRaw e)) wl (biasRow b) wr

end Cert.KernelIdeal.SageHost

end
-- ==== Proof.HostK.lean ====
/-
  The two-layer program's result as one function of its arguments. The buffers each layer is entered with are read
  back through the operations that run before it: the first layer finds the neighbour sums of the node features, the
  node features themselves, the reciprocal clamped in-degrees, its two weight matrices and its bias as a row; the
  second layer finds the same of the first layer's output, the reciprocal degrees again, and its own weights and bias.
-/
import proofs.«103960_j78752520339773_2_alg».proof.Proof.Gen.KernelIdeal.Frame
import proofs.«103960_j78752520339773_2_alg».proof.Proof.Region0
import proofs.«103960_j78752520339773_2_alg».proof.Proof.Region1
import proofs.«103960_j78752520339773_2_alg».proof.Proof.HostFns
import Idealize.ShloMosaic.Lib.StableHlo.Run

set_option maxRecDepth 16384

noncomputable section

namespace Cert.KernelIdeal.SageValue

open Cert.KernelIdeal Cert.KernelIdeal.Gen Cert.SageBody Cert.KernelIdeal.SageHost
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first layer is entered with -/

theorem W1_v1 (c : Dev nD) : W1 m ρ c (Proc.devRef .tc main_v1) = srcRaw (m ((c : Thread nD τ).loc main_arg7)) := by
  show StableHlo.after hostOps0 (W0 m ρ c) (Proc.devRef .tc main_v1) = _
  after_results_simp
  rfl

theorem W1_v3 (c : Dev nD) : W1 m ρ c (Proc.devRef .tc main_v3) = dstRaw (m ((c : Thread nD τ).loc main_arg7)) := by
  show StableHlo.after hostOps0 (W0 m ρ c) (Proc.devRef .tc main_v3) = _
  after_results_simp
  rfl

theorem W1_v21 (c : Dev nD) : W1 m ρ c (Proc.devRef .tc main_v21)
    = segSum (m ((c : Thread nD τ).loc main_arg0)) (srcRaw (m ((c : Thread nD τ).loc main_arg7))) (dstRaw (m ((c : Thread nD τ).loc main_arg7))) := by
  show StableHlo.after hostOps0 (W0 m ρ c) (Proc.devRef .tc main_v21) = _
  after_results_simp
  rfl

theorem W1_v11 (c : Dev nD) : W1 m ρ c (Proc.devRef .tc main_v11) = invDeg (dstRaw (m ((c : Thread nD τ).loc main_arg7))) := by
  show StableHlo.after hostOps0 (W0 m ρ c) (Proc.devRef .tc main_v11) = _
  after_results_simp
  rfl

theorem W1_v22 (c : Dev nD) : W1 m ρ c (Proc.devRef .tc main_v22) = biasRow (m ((c : Thread nD τ).loc main_arg2)) := by
  show StableHlo.after hostOps0 (W0 m ρ c) (Proc.devRef .tc main_v22) = _
  after_results_simp
  rfl

theorem W1_arg (c : Dev nD) (b : Ref sig .tc) (hb : b = main_arg0 ∨ b = main_arg1 ∨ b = main_arg3 ∨ b = main_arg4 ∨ b = main_arg5 ∨ b = main_arg6) :
    W1 m ρ c (Proc.devRef .tc b) = m ((c : Thread nD τ).loc b) := by
  show StableHlo.after hostOps0 (W0 m ρ c) (Proc.devRef .tc b) = _
  rcases hb with rfl | rfl | rfl | rfl | rfl | rfl <;> (after_results_simp <;> rfl)

/-! ## What the first layer leaves, and what the second is entered with -/

/-- The first layer's output array after its launch. -/
theorem W2_v23 (c : Dev nD) : W2 m ρ c (Proc.devRef .tc main_v23)
    = layer (m ((c : Thread nD τ).loc main_arg0)) (m ((c : Thread nD τ).loc main_arg1)) (m ((c : Thread nD τ).loc main_arg2))
        (m ((c : Thread nD τ).loc main_arg3)) (m ((c : Thread nD τ).loc main_arg7)) := by
  refine (W2_arr m ρ c 6).trans ((SageRegion0.final (V1 m ρ) c).trans ?_)
  show layerOut (W1 m ρ c (Proc.devRef .tc main_v21)) (W1 m ρ c (Proc.devRef .tc main_arg0)) (W1 m ρ c (Proc.devRef .tc main_v11))
    (W1 m ρ c (Proc.devRef .tc main_arg1)) (W1 m ρ c (Proc.devRef .tc main_v22)) (W1 m ρ c (Proc.devRef .tc main_arg3)) = _
  rw [W1_v21, W1_v11, W1_v22, W1_arg m ρ c main_arg0 (.inl rfl), W1_arg m ρ c main_arg1 (.inr (.inl rfl)),
    W1_arg m ρ c main_arg3 (.inr (.inr (.inl rfl)))]
  rfl

/-- A buffer the first layer's launch does not write is, after it, what the operations before it left. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-- The reciprocal degrees pass through the first layer's launch unchanged: it only reads them. -/
theorem W2_v11 (c : Dev nD) : W2 m ρ c (Proc.devRef .tc main_v11) = W1 m ρ c (Proc.devRef .tc main_v11) :=
  (W2_arr m ρ c 2).trans (((dat0 (V1 m ρ) c).arrAt_in 2 rfl _).trans (A_eq0 (V1 m ρ) c 2))

theorem W3_v33 (c : Dev nD) : W3 m ρ c (Proc.devRef .tc main_v33)
    = segSum (W2 m ρ c (Proc.devRef .tc main_v23)) (W2 m ρ c (Proc.devRef .tc main_v1)) (W2 m ρ c (Proc.devRef .tc main_v3)) := by
  show StableHlo.after hostOps1 (W2 m ρ c) (Proc.devRef .tc main_v33) = _
  after_results_simp
  rfl

theorem W3_v34 (c : Dev nD) : W3 m ρ c (Proc.devRef .tc main_v34) = biasRow (W2 m ρ c (Proc.devRef .tc main_arg5)) := by
  show StableHlo.after hostOps1 (W2 m ρ c) (Proc.devRef .tc main_v34) = _
  after_results_simp
  rfl

theorem W3_keep (c : Dev nD) (b : Ref sig .tc) (hb : b = main_v23 ∨ b = main_v11 ∨ b = main_arg4 ∨ b = main_arg6) :
    W3 m ρ c (Proc.devRef .tc b) = W2 m ρ c (Proc.devRef .tc b) := by
  show StableHlo.after hostOps1 (W2 m ρ c) (Proc.devRef .tc b) = _
  rcases hb with rfl | rfl | rfl | rfl <;> (after_results_simp <;> rfl)

/-! ## The result -/

/-- The result array after the run: the second layer on the first layer's output. -/
theorem W4_out (c : Dev nD) : W4 m ρ c (Proc.devRef .tc main_v35)
    = layer (layer (m ((c : Thread nD τ).loc main_arg0)) (m ((c : Thread nD τ).loc main_arg1)) (m ((c : Thread nD τ).loc main_arg2))
          (m ((c : Thread nD τ).loc main_arg3)) (m ((c : Thread nD τ).loc main_arg7)))
        (m ((c : Thread nD τ).loc main_arg4)) (m ((c : Thread nD τ).loc main_arg5)) (m ((c : Thread nD τ).loc main_arg6))
        (m ((c : Thread nD τ).loc main_arg7)) := by
  refine (W4_arr m ρ c 6).trans ((SageRegion1.final (V3 m ρ) c).trans ?_)
  show layerOut (W3 m ρ c (Proc.devRef .tc main_v33)) (W3 m ρ c (Proc.devRef .tc main_v23)) (W3 m ρ c (Proc.devRef .tc main_v11))
    (W3 m ρ c (Proc.devRef .tc main_arg4)) (W3 m ρ c (Proc.devRef .tc main_v34)) (W3 m ρ c (Proc.devRef .tc main_arg6)) = _
  rw [W3_v33, W3_v34, W3_keep m ρ c main_v23 (.inl rfl), W3_keep m ρ c main_v11 (.inr (.inl rfl)),
    W3_keep m ρ c main_arg4 (.inr (.inr (.inl rfl))), W3_keep m ρ c main_arg6 (.inr (.inr (.inr rfl))),
    W2_v23,
    W2_keep m ρ c main_v1 (by decide), W2_keep m ρ c main_v3 (by decide), W2_v11,
    W2_keep m ρ c main_arg4 (by decide), W2_keep m ρ c main_arg5 (by decide), W2_keep m ρ c main_arg6 (by decide),
    W1_v1, W1_v3, W1_v11, W1_arg m ρ c main_arg4 (.inr (.inr (.inr (.inl rfl)))),
    W1_arg m ρ c main_arg5 (.inr (.inr (.inr (.inr (.inl rfl))))), W1_arg m ρ c main_arg6 (.inr (.inr (.inr (.inr (.inr rfl)))))]
  rfl

end Cert.KernelIdeal.SageValue

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.RefLayer.lean ====
/-
  One layer as the reference spells it, read at an entry: the neighbour sums divided by the clamped in-degree of
  their row, times the left weights, plus the bias spread over the rows, plus the node features times the right
  weights, clamped below at zero. At entry (r, q):
    max ( sum_k (s(r,k) / d(r,0)) * wl(k,q)  +  b(q)  +  sum_k h(r,k) * wr(k,q) ) 0.
-/
import proofs.«103960_j78752520339773_2_alg».proof.Proof.Gen.ReferenceIdeal
import proofs.«103960_j78752520339773_2_alg».proof.Proof.Body
import proofs.«103960_j78752520339773_2_alg».proof.Proof.LibDotsNT
import Idealize.ShloMosaic.Lib.Pipeline.Value
import Idealize.ShloMosaic.Lib.ValueIdx
import Idealize.ShloMosaic.PureOps.Ideal.Laws

noncomputable section

open scoped BigOperators

namespace Cert.ReferenceIdeal.SageRef

open Cert.ReferenceIdeal Cert.ReferenceIdeal.Gen Cert.SageBody
open Idealize.ShloMosaic Idealize.ShloMosaic.ValueIdx

abbrev I32 (s : Shape) := (⟨s, .i32⟩ : BufTy).Contents (Elt Ideal)
abbrev F32 (s : Shape) := (⟨s, .f32⟩ : BufTy).Contents (Elt Ideal)

/-- One layer from the neighbour sums, the clamped in-degrees, the node features, the weights and the bias. -/
def refLayer (ssum : F32 S100000x128) (dcl : F32 S100000x1) (h : F32 S100000x128) (wl : F32 S128x128) (b : F32 S128)
    (wr : F32 S128x128) : F32 S100000x128 :=
  maximumf
    (addf
      (addf
        (Host.dotGeneral (F := Ideal) (φ₁ := .f32) (φ₂ := .f32) dot_S100000x128_S128x128_S100000x128_1_0_0_1_n_n none
          (Host.divf (F := Ideal) (φ := .f32) ssum (broadcastInDim S100000x128 ![0, 1] bcast_S100000x1_S100000x128_0_1 dcl)) wl)
        (broadcastInDim S100000x128 ![0, 1] bcast_S1x128_S100000x128_0_1 (broadcastInDim S1x128 ![1] bcast_S128_S1x128_1 b)))
      (Host.dotGeneral (F := Ideal) (φ₁ := .f32) (φ₂ := .f32) dot_S100000x128_S128x128_S100000x128_1_0_0_1_n_n none h wr))
    (broadcastInDim S100000x128 ![] bcast_S_S100000x128 (constant (F := Ideal) S_ .f32 0x00000000#32))

theorem refLayer_apply (ssum : F32 S100000x128) (dcl : F32 S100000x1) (h : F32 S100000x128) (wl : F32 S128x128)
    (b : F32 S128) (wr : F32 S128x128) (r : Fin 100000) (q : Fin 128) :
    refLayer ssum dcl h wl b wr (ix2 r q)
      = sageOut (fun r k => Ideal.div (ssum (ix2 r k)) (dcl (ix2 r (0 : Fin 1)))) (fun r k => h (ix2 r k))
          (fun k c => wl (ix2 k c)) (fun k c => wr (ix2 k c)) (fun c => b (ix1 c)) r q := by
  unfold refLayer sageOut
  refine (maximumf_apply _ _ _).trans (congrArg₂ max ?_ ?_)
  · refine (addf_apply _ _ _).trans (congrArg₂ (· + ·) ?_ ?_)
    · refine (addf_apply _ _ _).trans (congrArg₂ (· + ·) ?_ ?_)
      · simp only [Host.dotGeneral]
        refine (LibDotsNT.plain_dotGeneral_apply dot_S100000x128_S128x128_S100000x128_1_0_0_1_n_n rfl rfl rfl rfl rfl rfl
          none _ _ _ r q).trans (Finset.sum_congr rfl fun k _ => congrArg₂ (· * ·) ?_ rfl)
        show Ideal.div (ssum (ix2 r k)) (broadcastInDim S100000x128 ![0, 1] bcast_S100000x1_S100000x128_0_1 dcl (ix2 r k)) = _
        refine congrArg (Ideal.div _) ?_
        exact broadcastInDim_apply _ bcast_S100000x1_S100000x128_0_1 dcl (ix2 r k) (ix2 r (0 : Fin 1)) (fun a => match a with
          | ⟨0, _⟩ => by show r.val = if (100000 : Nat) = 1 then 0 else r.val; rw [if_neg (by decide)]
          | ⟨1, _⟩ => by show 0 = if (1 : Nat) = 1 then 0 else k.val; rw [if_pos rfl])
      · refine (broadcastInDim_apply _ bcast_S1x128_S100000x128_0_1 _ (ix2 r q) (ix2 (0 : Fin 1) q) (fun a => match a with
          | ⟨0, _⟩ => by show 0 = if (1 : Nat) = 1 then 0 else r.val; rw [if_pos rfl]
          | ⟨1, _⟩ => by show q.val = if (128 : Nat) = 1 then 0 else q.val; rw [if_neg (by decide)])).trans ?_
        exact broadcastInDim_apply _ bcast_S128_S1x128_1 b (ix2 (0 : Fin 1) q) (ix1 q) (fun a => match a with
          | ⟨0, _⟩ => by show q.val = if (128 : Nat) = 1 then 0 else q.val; rw [if_neg (by decide)])
    · simp only [Host.dotGeneral]
      exact LibDotsNT.plain_dotGeneral_apply dot_S100000x128_S128x128_S100000x128_1_0_0_1_n_n rfl rfl rfl rfl rfl rfl
        none _ _ _ r q
  · rfl

/-! ## The reference's program from its arguments -/

/-- The edges' source numbers: row 0 of the edge list. -/
def srcRaw (e : I32 S2x1600000) : I32 S1600000 :=
  shapeCast _ (extractStridedSlice S1x1600000 ![0, 0] e slices_S2x1600000_S1x1600000_0_0) shapeCasts_S1x1600000_S1600000

/-- The edges' destination numbers: row 1 of the edge list. -/
def dstRaw (e : I32 S2x1600000) : I32 S1600000 :=
  shapeCast _ (extractStridedSlice S1x1600000 ![1, 0] e slices_S2x1600000_S1x1600000_1_0) shapeCasts_S1x1600000_S1600000

/-- The neighbour sums of a feature array. -/
def segSum (feat : F32 S100000x128) (s d : I32 S1600000) : F32 S100000x128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 feat
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The in-degrees: a one added per incoming edge, from zero. -/
def degRaw (d : I32 S1600000) : F32 S100000x1 :=
  Host.scatterAdd (F := Ideal) scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 d)
    (broadcastInDim S1600000x1 ![] bcast_S_S1600000x1 (constant (F := Ideal) S_ .f32 0x3F800000#32))

/-- The in-degrees clamped below at one. -/
def degClamp (d : I32 S1600000) : F32 S100000x1 :=
  maximumf (degRaw d) (broadcastInDim S100000x1 ![] bcast_S_S100000x1 (constant (F := Ideal) S_ .f32 0x3F800000#32))

/-- One layer from the node features, its weights, its bias and the edge list. -/
def refLayerOf (h : F32 S100000x128) (wl : F32 S128x128) (b : F32 S128) (wr : F32 S128x128) (e : I32 S2x1600000) :
    F32 S100000x128 :=
  refLayer (segSum h (srcRaw e) (dstRaw e)) (degClamp (dstRaw e)) h wl b wr

end Cert.ReferenceIdeal.SageRef

end
-- ==== Proof.RefValue.lean ====
/-
  The reference's result as two layers. Its run ends with the result array at the composition of all its operations
  on the arguments; grouped, that composition is the second layer applied to the first layer's output, each layer
  the neighbour sums divided by the clamped degrees, the two products, the bias and the clamp at zero.
-/
import proofs.«103960_j78752520339773_2_alg».proof.Proof.Gen.ReferenceIdeal.Run
import proofs.«103960_j78752520339773_2_alg».proof.Proof.RefLayer

set_option maxRecDepth 16384

noncomputable section

namespace Cert.ReferenceIdeal.SageRef

open Cert.ReferenceIdeal Cert.ReferenceIdeal.Gen
open Idealize.ShloMosaic Idealize.ShloMosaic.TcCoe Idealize.SL.Sem

/-- The run's composed term is the second layer on the first layer's output. -/
theorem res_eq (m : (ℓ : Loc nD τ sig) → Buf (Elt Ideal) ℓ) (c : Dev nD) :
    Cert.ReferenceIdeal.Value.res_main_v53 (F := Ideal) m c
      = refLayerOf (refLayerOf (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg7)))
          (m ((c.tc : Thread nD τ).loc main_arg4)) (m ((c.tc : Thread nD τ).loc main_arg5)) (m ((c.tc : Thread nD τ).loc main_arg6))
          (m ((c.tc : Thread nD τ).loc main_arg7)) := by
  unfold Cert.ReferenceIdeal.Value.res_main_v53 refLayerOf refLayer segSum degClamp degRaw srcRaw dstRaw
  rfl

end Cert.ReferenceIdeal.SageRef

end
-- ==== Proof.Law.lean ====
/-
  The one algebraic law of the mean aggregation, on the extended reals: multiplying a sum of neighbour features by
  the reciprocal of a degree that is at least one is dividing the sum by that degree. Division by a nonzero extended
  real is multiplication by its inverse, so both sides are the same product; the degree is a maximum with one, hence
  never zero, whatever the count it was taken from.
-/
import Idealize.ShloMosaic.PureOps.Ideal
import Idealize.ShloMosaic.PureOps.Ideal.Laws

noncomputable section

namespace Cert.SageLaw

open Idealize.ShloMosaic

/-- The pattern of the float one denotes the extended real one. -/
theorem one_bits : Ideal.ofBits .f32 0x3F800000#32 = 1 := by
  simp [Ideal.ofBits, Ideal.ieee, -EReal.coe_mul]
  norm_num

/-- A product with the reciprocal of a nonzero degree is the quotient by that degree. -/
theorem mul_recip_eq_div (s d : EReal) (hd : d ≠ 0) : s * Ideal.div 1 d = Ideal.div s d := by
  unfold Ideal.div
  rw [if_neg hd, if_neg hd, one_mul]

/-- A maximum with one is never zero. -/
theorem max_one_ne_zero (x : EReal) : max x 1 ≠ 0 :=
  ne_of_gt (lt_of_lt_of_le zero_lt_one (le_max_right x 1))

/-- The mean of a neighbour sum, the two ways it is computed: times the reciprocal of the clamped degree, or
    divided by the clamped degree. -/
theorem mean_eq (s deg : EReal) :
    s * Ideal.div (Ideal.ofBits .f32 0x3F800000#32) (max deg (Ideal.ofBits .f32 0x3F800000#32))
      = Ideal.div s (max deg (Ideal.ofBits .f32 0x3F800000#32)) := by
  rw [one_bits]
  exact mul_recip_eq_div s _ (max_one_ne_zero deg)

end Cert.SageLaw

end
-- ==== Proof.Bridge.lean ====
/-
  One layer the two ways it is computed is one function. The fused layer multiplies the neighbour sums by the
  reciprocal of the clamped in-degree before the left product; the reference divides them by the clamped in-degree.
  The clamped in-degree is a maximum with one, so it is not zero, and on the extended reals a product with the
  reciprocal of a nonzero number is the quotient by it. Everything else — the neighbour sums, the in-degrees, the two
  products, the bias, the clamp at zero — is the same expression on both sides.
-/
import proofs.«103960_j78752520339773_2_alg».proof.Proof.HostFns
import proofs.«103960_j78752520339773_2_alg».proof.Proof.RefLayer
import proofs.«103960_j78752520339773_2_alg».proof.Proof.Law
import Idealize.ShloMosaic.Lib.Pipeline.Value

noncomputable section

open scoped BigOperators

namespace Cert.SageBridge

open Idealize.ShloMosaic Idealize.ShloMosaic.ValueIdx Cert.SageBody
open Cert.KernelIdeal.SageHost

/-- The bias laid out as one row reads, at column c, the bias at c. -/
theorem biasRow_apply (b : F32 Cert.KernelIdeal.S128) (c : Fin 128) : biasRow b (ix2 (0 : Fin 1) c) = b (ix1 c) :=
  shapeCast_apply b Cert.KernelIdeal.Gen.shapeCasts_S128_S1x128 _ _ (by
    rw [Shape.rowMajor_val_two, Shape.rowMajor_val_one]
    show c.val = 0 * 128 + c.val
    omega)

/-- The neighbour sums are spelt the same on both sides. -/
theorem segSum_eq (h : F32 Cert.KernelIdeal.S100000x128) (e : I32 Cert.KernelIdeal.S2x1600000) :
    segSum h (srcRaw e) (dstRaw e)
      = Cert.ReferenceIdeal.SageRef.segSum h (Cert.ReferenceIdeal.SageRef.srcRaw e) (Cert.ReferenceIdeal.SageRef.dstRaw e) := rfl

/-- The in-degrees are spelt the same on both sides. -/
theorem degRaw_eq (e : I32 Cert.KernelIdeal.S2x1600000) :
    degRaw (dstRaw e) = Cert.ReferenceIdeal.SageRef.degRaw (Cert.ReferenceIdeal.SageRef.dstRaw e) := rfl

/-- The host's quotient of two arrays at an entry. -/
theorem hostDivf_apply {s : Shape} (a b : FVec Ideal s .f32) (i : s.Idx) :
    Host.divf (F := Ideal) a b i = Ideal.div (a i) (b i) := rfl

/-- A scalar constant spread over an array reads the constant at every entry. -/
theorem splat_apply {t : Shape} (h : Cert.KernelIdeal.S_.BroadcastsInDim t (![] : Fin 0 → Fin t.rank)) (w : BitVec 32) (i : t.Idx) :
    broadcastInDim t ![] h (constant (F := Ideal) Cert.KernelIdeal.S_ .f32 w) i = Ideal.ofBits .f32 w :=
  (broadcastInDim_apply _ h _ i ix0 (fun a => a.elim0)).trans (constant_apply _ _)

/-- The reciprocal clamped in-degree of row r, over the reference's spelling of the in-degree. -/
theorem invDeg_apply (e : I32 Cert.KernelIdeal.S2x1600000) (r : Fin 100000) :
    invDeg (dstRaw e) (ix2 r (0 : Fin 1))
      = Ideal.div (Ideal.ofBits .f32 0x3F800000#32)
          (max (Cert.ReferenceIdeal.SageRef.degRaw (Cert.ReferenceIdeal.SageRef.dstRaw e) (ix2 r (0 : Fin 1)))
            (Ideal.ofBits .f32 0x3F800000#32)) := by
  unfold invDeg degClamp
  rw [degRaw_eq]
  refine (hostDivf_apply _ _ _).trans (congrArg₂ Ideal.div (splat_apply _ _ _) ?_)
  exact (maximumf_apply (φ := .f32) _ _ _).trans (congrArg (max _) (splat_apply _ _ _))

/-- The reference's clamped in-degree of row r. -/
theorem degClamp_apply (e : I32 Cert.KernelIdeal.S2x1600000) (r : Fin 100000) :
    Cert.ReferenceIdeal.SageRef.degClamp (Cert.ReferenceIdeal.SageRef.dstRaw e) (ix2 r (0 : Fin 1))
      = max (Cert.ReferenceIdeal.SageRef.degRaw (Cert.ReferenceIdeal.SageRef.dstRaw e) (ix2 r (0 : Fin 1)))
          (Ideal.ofBits .f32 0x3F800000#32) := by
  unfold Cert.ReferenceIdeal.SageRef.degClamp
  exact (maximumf_apply (φ := .f32) _ _ _).trans (congrArg (max _) (splat_apply _ _ _))

/-- One layer, fused or not, is one function of the node features, the weights, the bias and the edge list. -/
theorem layer_eq (h : F32 Cert.KernelIdeal.S100000x128) (wl : F32 Cert.KernelIdeal.S128x128) (b : F32 Cert.KernelIdeal.S128)
    (wr : F32 Cert.KernelIdeal.S128x128) (e : I32 Cert.KernelIdeal.S2x1600000) :
    layer h wl b wr e = Cert.ReferenceIdeal.SageRef.refLayerOf h wl b wr e := by
  funext i
  obtain ⟨r, q, rfl⟩ : ∃ (r : Fin 100000) (q : Fin 128), i = ix2 r q := ⟨i 0, i 1, eq_ix2 i⟩
  unfold layer Cert.ReferenceIdeal.SageRef.refLayerOf
  refine (layerOut_apply _ _ _ _ _ _ r q).trans (Eq.trans ?_ (Cert.ReferenceIdeal.SageRef.refLayer_apply _ _ _ _ _ _ r q).symm)
  unfold sageOut
  dsimp only
  rw [segSum_eq, biasRow_apply]
  simp only [invDeg_apply, degClamp_apply, Cert.SageLaw.mean_eq]

end Cert.SageBridge

end
-- ==== Proof.lean ====
/-
  Two mean-aggregation graph layers, fused against plain: the claim and its proof.

  Each layer takes node features h, an edge list, two weight matrices and a bias. For every node it sums the
  features of the sources of its incoming edges, takes the mean by the node's in-degree clamped below at one,
  multiplies the mean by the left weights, adds the bias, adds the node's own features times the right weights and
  clamps the result below at zero. The program under proof computes the reciprocal clamped in-degrees once, and runs
  each layer's dense part in one launch over blocks of 5000 rows: mean as a product with the reciprocal, the two
  products, the bias, the clamp. The reference divides by the clamped in-degree and uses whole-array products.

  On the extended reals the two agree entry by entry: a block of rows of a product is the product of the block of
  rows; rounding to a narrower float format is the identity; and a product with the reciprocal of a number that is
  at least one is the quotient by that number. Nothing needs the inputs to be finite. The gather of source rows
  and the scatter-add over destinations are the same operations on both sides and are never opened.

  The frames of the two printed programs with launches are the generated ones; the reference's frame is its
  generated run with the result forgotten; the idealization rewrote nothing.
-/
import proofs.«103960_j78752520339773_2_alg».proof.Defs
import proofs.«103960_j78752520339773_2_alg».proof.Proof.Gen.Kernel
import proofs.«103960_j78752520339773_2_alg».proof.Proof.Gen.Kernel.Frame
import proofs.«103960_j78752520339773_2_alg».proof.Proof.Gen.KernelIdeal
import proofs.«103960_j78752520339773_2_alg».proof.Proof.Gen.KernelIdeal.Frame
import proofs.«103960_j78752520339773_2_alg».proof.Proof.Gen.ReferenceIdeal
import proofs.«103960_j78752520339773_2_alg».proof.Proof.Gen.Pre_finite_inputs
import proofs.«103960_j78752520339773_2_alg».proof.Proof.Gen.ReferenceIdeal.Run
import proofs.«103960_j78752520339773_2_alg».proof.Proof.RunMain
import proofs.«103960_j78752520339773_2_alg».proof.Proof.HostK
import proofs.«103960_j78752520339773_2_alg».proof.Proof.RefValue
import proofs.«103960_j78752520339773_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the second layer of the first layer of the arguments. -/
theorem algebraic : Cert.algebraic_KernelIdeal_ReferenceIdeal := by
  intro m ρ m' ρ' _ hagree
  refine ⟨fun c => Cert.KernelIdeal.SageHost.layer
      (Cert.KernelIdeal.SageHost.layer (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg7)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.SageValue.W4_out m ρ c), (h c).2⟩)
      (Cert.KernelIdeal.SageRun.run_main m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.SageRef.res_eq m' c, e0, e1, e2, e3, e4, e5, e6, e7]
    rw [← Cert.SageBridge.layer_eq, ← Cert.SageBridge.layer_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
